-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S_ : Shape := ⟨0, ![]⟩
abbrev S1024x1024 : Shape := ⟨2, ![1024, 1024]⟩
abbrev S1x1024x1024 : Shape := ⟨3, ![1, 1024, 1024]⟩
abbrev S32x1024 : Shape := ⟨2, ![32, 1024]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg1 : FVec F S32x1024x1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1024x1024 32 := iotaInDim S1024x1024 32 0
  let main_v20 : IVec S1024x1024 32 := iotaInDim S1024x1024 32 1
  let main_c_6 : IVec S_ 32 := constantI S_ 32 0#32
  let main_v21 : IVec S1024x1024 32 := broadcastInDim S1024x1024 ![] bcast_S_S1024x1024 main_c_6
  let main_v22 : IVec S1024x1024 32 := addi main_v19 main_v21
  let main_v23 : IVec S1024x1024 1 := cmpi .eq main_v22 main_v20
  let main_v24 : FVec F S1024x1024 .f32 := uitofp .f32 main_v23
  let main_v25 : FVec F S1x1024x1024 .f32 := broadcastInDim S1x1024x1024 ![1, 2] bcast_S1024x1024_S1x1024x1024_1_2 main_v24
  let main_v26 : FVec F S32x1024x1024 .f32 := broadcastInDim S32x1024x1024 ![0, 1, 2] bcast_S1x1024x1024_S32x1024x1024_0_1_2 main_v25
  let main_v27 : FVec F S32x1024x1024 .f32 := addf main_arg1 main_v26
  let main_cst_7 : FVec F S_ .f32 := constant S_ .f32 0x00000000#32
  let main_v28 : FVec F S32x1024 .f32 := (fun x v => Host.reduceAdd x v reducesTo_S32x1024x1024_S32x1024_d2 h_S_) main_v27 main_cst_7
  let main_cst_8 : FVec F S_ .f32 := constant S_ .f32 0x00000000#32
  let main_v29 : FVec F S32x1024 .f32 := broadcastInDim S32x1024 ![] bcast_S_S32x1024 main_cst_8
  let main_v30 : IVec S32x1024 1 := cmpf .ogt main_v28 main_v29
  let main_c_9 : IVec S_ 1 := constantI S_ 1 1#1
  let main_v31 : IVec S_ 1 := (fun x v => Host.reduce IntOp.andi x v reducesTo_S32x1024_S_d0_1 h_S_) main_v30 main_c_9
  let main_v32 : IVec S_ 1 := andi main_v18 main_v31
  main_v32

def fn {F : FTy → Type} [FloatOps F] (main_arg0 : FVec F S32x1024x128 .f32) (main_arg1 : FVec F S32x1024x1024 .f32) (main_arg2 : FVec F S128x128 .f32) (main_arg3 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S32x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x128, .f32⟩
  | .local _ .vmem, ⟨5, _⟩ => ⟨S128, .f32⟩
  | .local _ .vmem, ⟨6, _⟩ => ⟨S1x1024x128, .f32⟩
  | .local _ .vmem, ⟨7, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  reduces_S1024x1024_S1024 : S1024x1024.Reduces [1] S1024
  shapeCasts_S1024_S1024x1 : S1024.ShapeCasts S1024x1
  bitsLt_bf16_f32 : FTy.bits .bf16 < FTy.bits .f32
  broadcasts_S1024x1_S1024x128 : S1024x1.Broadcasts S1024x128
  shapeCasts_S128_S1x128 : S128.ShapeCasts S1x128
  broadcasts_S1x128_S1024x128 : S1x128.Broadcasts S1024x128
  shapeCasts_S1024x128_S1x1024x128 : S1024x128.ShapeCasts S1x1024x128
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S32x1024x128.size a
  hwx0_4 : ∀ i : grid0.Coords, EltTy.bits .f32 = 32 ∨ (Rect.block (s := S32x1024x128) S1x1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1024x1024 : Shape := ⟨2, ![1024, 1024]⟩
abbrev S_ : Shape := ⟨0, ![]⟩
abbrev S1x1024x1024 : Shape := ⟨3, ![1, 1024, 1024]⟩
abbrev S32x1024 : Shape := ⟨2, ![32, 1024]⟩
abbrev S32x1024x1 : Shape := ⟨3, ![32, 1024, 1]⟩
abbrev S32x1x1024 : Shape := ⟨3, ![32, 1, 1024]⟩
abbrev S1x1x128 : Shape := ⟨3, ![1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S1024x1024, .i32⟩
  | .hbm, ⟨5, _⟩ => ⟨S1024x1024, .i32⟩
  | .hbm, ⟨6, _⟩ => ⟨S_, .i32⟩
  | .hbm, ⟨7, _⟩ => ⟨S1024x1024, .i32⟩
  | .hbm, ⟨8, _⟩ => ⟨S1024x1024, .i32⟩
  | .hbm, ⟨9, _⟩ => ⟨S1024x1024, .i1⟩
  | .hbm, ⟨10, _⟩ => ⟨S1024x1024, .f32⟩
  | .hbm, ⟨11, _⟩ => ⟨S1x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024, .f32⟩
  | .hbm, ⟨16, _⟩ => ⟨S_, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .i1⟩
  | .hbm, ⟨23, _⟩ => ⟨S_, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S32x1024x1, .f32⟩
  | .hbm, ⟨28, _⟩ => ⟨S32x1024x1024, .f32⟩
  | .hbm, ⟨29, _⟩ => ⟨S32x1024x1024, .f32⟩
  | .hbm, ⟨30, _⟩ => ⟨S32x1x1024, .f32⟩
  | .hbm, ⟨31, _⟩ => ⟨S32x1024x1024, .f32⟩
  | .hbm, ⟨32, _⟩ => ⟨S32x1024x1024, .f32⟩
  | .hbm, ⟨33, _⟩ => ⟨S32x1024x128, .f32⟩
  | .hbm, ⟨34, _⟩ => ⟨S32x1024x128, .f32⟩
  | .hbm, ⟨35, _⟩ => ⟨S1x1x128, .f32⟩
  | .hbm, ⟨36, _⟩ => ⟨S32x1024x128, .f32⟩
  | .hbm, ⟨37, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  dot_S32x1024x128_S128x128_S32x1024x128_2_0_01_1_n_n_wf : DotDims.WF S32x1024x128 S128x128 S32x1024x128 [2] [0] [0, 1] [1] [] []
  dot_S32x1024x1024_S32x1024x128_S32x1024x128_2_1_1_2_0_0_wf : DotDims.WF S32x1024x1024 S32x1024x128 S32x1024x128 [2] [1] [1] [2] [0] [0]

variable [Facts₀]

def dot_S32x1024x128_S128x128_S32x1024x128_2_0_01_1_n_n : DotDims S32x1024x128 S128x128 S32x1024x128 where
  lhsContracting := [2]
  rhsContracting := [0]
  lhsNonContracting := [0, 1]
  rhsNonContracting := [1]
  lhsBatch := []
  rhsBatch := []
  wf := dot_S32x1024x128_S128x128_S32x1024x128_2_0_01_1_n_n_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Consts.lean ====
/-
  The float literals the two programs spell, as the extended reals their bit patterns denote: the kernel's
  self-loop weight `1.0`, the reference's exponent `-0.5` and its infinity test's `+∞`.
-/
import Idealize.ShloMosaic.PureOps.Ideal

noncomputable section

namespace Cert.GConv.Consts

open Idealize.ShloMosaic

/-- `1.0` denotes `1`. -/
theorem ofBits_one : Ideal.ofBits .f32 0x3F800000#32 = 1 := by
  simp [Ideal.ofBits, Ideal.ieee, -EReal.coe_mul]; norm_num

/-- `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern `0x7F800000` denotes `+∞`. -/
theorem ofBits_inf : Ideal.ofBits .f32 0x7F800000#32 = ⊤ := by
  simp [Ideal.ofBits, Ideal.ieee]

end Cert.GConv.Consts

end
-- ==== Proof.KernelBody.lean ====
/-
  What the kernel's body computes from one batch's blocks, read at an index of its output block.

  With `A` the batch's [1024, 1024] adjacency block, `X` its [1024, 128] feature block, `W` the weight and `β` the bias,
  the body forms the degree column `deg n = Σ_m A[n, m] + 1`, its inverse square root `d n = rsqrt (deg n)`, the support
  `S[n, o] = Σ_i X[n, i] · W[i, o]` (a matmul into zero) and the aggregate `Σ_m A[n, m] · (d m · S[m, o])` (a second matmul
  into zero), and stores `d n · aggregate + (d n · d n) · S[n, o] + β o`. The changes of float format are the identity on
  the extended reals; the shape casts and broadcasts only move indices.
-/
import proofs.«121480_j87771951661495_1_alg».proof.Proof.Gen.KernelIdeal.Skeleton
import proofs.«121480_j87771951661495_1_alg».proof.Proof.LibKeepdims
import proofs.«121480_j87771951661495_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

variable (x0 : Vec Ideal S1x1024x128 .f32) (x1 : Vec Ideal S1x1024x1024 .f32) (x2 : Vec Ideal S128x128 .f32)
  (x3 : Vec Ideal S128 .f32)

/-! ## The body's intermediate vectors, named -/

/-- The degree column: each row of the adjacency block summed along its lanes, kept as a column, plus one. -/
def degCol : FVec Ideal S1024x1 .f32 :=
  addf (shapeCast S1024x1 (multiReduction .add [1] S1024
      (shapeCast S1024x1024 x1 shapeCasts_S1x1024x1024_S1024x1024 : FVec Ideal S1024x1024 .f32) 0x00000000#32
      reduces_S1024x1024_S1024 (.inl rfl) rfl) shapeCasts_S1024_S1024x1)
    (broadcast S1024x1 (Scalar.ofBits .f32 0x3F800000#32))

/-- The inverse square root of the degree column. -/
def dCol : FVec Ideal S1024x1 .f32 := rsqrt (degCol x1)

/-- The support: features times weight, accumulated into zero. -/
def suppBlk : FVec Ideal S1024x128 .f32 :=
  matmul dot_S1024x128_S128x128_S1024x128_1_0_0_1_n_n none
    (truncf .bf16 (shapeCast S1024x128 x0 shapeCasts_S1x1024x128_S1024x128 : FVec Ideal S1024x128 .f32) bitsLt_bf16_f32)
    (truncf .bf16 (x2 : FVec Ideal S128x128 .f32) bitsLt_bf16_f32) (constant S1024x128 .f32 0x00000000#32)

/-- The aggregate: adjacency times the row-scaled support, accumulated into zero. -/
def aggBlk : FVec Ideal S1024x128 .f32 :=
  matmul dot_S1024x1024_S1024x128_S1024x128_1_0_0_1_n_n none
    (truncf .bf16 (shapeCast S1024x1024 x1 shapeCasts_S1x1024x1024_S1024x1024 : FVec Ideal S1024x1024 .f32) bitsLt_bf16_f32)
    (truncf .bf16 (mulf (broadcastTo S1024x128 (dCol x1) broadcasts_S1024x1_S1024x128) (suppBlk x0 x2)) bitsLt_bf16_f32)
    (constant S1024x128 .f32 0x00000000#32)

/-- The stored payload over the named vectors (the definitions unfold to the printed sequence). -/
theorem pay_eq : k0_pay1 x0 x1 x2 x3 =
    shapeCast S1x1024x128
      (addf (addf (mulf (broadcastTo S1024x128 (dCol x1) broadcasts_S1024x1_S1024x128) (aggBlk x0 x1 x2))
          (mulf (broadcastTo S1024x128 (mulf (dCol x1) (dCol x1)) broadcasts_S1024x1_S1024x128) (suppBlk x0 x2)))
        (broadcastTo S1024x128 (shapeCast S1x128 x3 shapeCasts_S128_S1x128) broadcasts_S1x128_S1024x128))
      shapeCasts_S1024x128_S1x1024x128 := rfl

/-! ## Each named vector at an index -/

/-- A row of the adjacency block summed along the lanes. -/
theorem rowSum_apply (n : Fin 1024) :
    multiReduction .add [1] S1024 (shapeCast S1024x1024 x1 shapeCasts_S1x1024x1024_S1024x1024 : FVec Ideal S1024x1024 .f32)
        0x00000000#32 reduces_S1024x1024_S1024 (.inl rfl) rfl (ix1 n)
      = ∑ m : Fin 1024, x1 (ix3 (0 : Fin 1) n m) := by
  refine (Ideal.multiReduction_add_single _ 0x00000000#32 reduces_S1024x1024_S1024 (.inl rfl) rfl (ix1 n)).trans ?_
  refine Finset.sum_congr rfl fun m _ => ?_
  have e : reduces_S1024x1024_S1024.lift (ix1 n) m = ix2 n m :=
    funext fun a => Fin.ext (by match a with | ⟨0, _⟩ => rfl | ⟨1, _⟩ => rfl)
  rw [e]
  exact shapeCast_1ab_ab_apply x1 _ n m

/-- The degree column at row `n`: the row's sum plus one. -/
theorem degCol_apply (n : Fin 1024) (u : Fin 1) :
    degCol x1 (ix2 n u) = (∑ m : Fin 1024, x1 (ix3 (0 : Fin 1) n m)) + 1 := by
  unfold degCol
  rw [addf_apply, broadcast_apply, Cert.Keepdims.shapeCast_a_a1_apply, rowSum_apply]
  show _ + Ideal.ofBits .f32 0x3F800000#32 = _
  rw [Cert.GConv.Consts.ofBits_one]

/-- Its inverse square root at row `n`. -/
theorem dCol_apply (n : Fin 1024) (u : Fin 1) :
    dCol x1 (ix2 n u) = Ideal.rsqrt ((∑ m : Fin 1024, x1 (ix3 (0 : Fin 1) n m)) + 1) := by
  show Ideal.rsqrt (degCol x1 (ix2 n u)) = _
  rw [degCol_apply]

/-! ### The first matmul's operand indices -/

theorem lhs_supp_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs_supp_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_supp_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_supp_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The support at `(n, o)`: the row of features against the column of weights. -/
theorem suppBlk_apply (n : Fin 1024) (o : Fin 128) :
    suppBlk x0 x2 (ix2 n o) = ∑ i : Fin 128, x0 (ix3 (0 : Fin 1) n i) * x2 (ix2 i o) := by
  unfold suppBlk
  refine (Ideal.matmul_constant_zero_apply dot_S1024x128_S128x128_S1024x128_1_0_0_1_n_n none _ _ (ix2 n o)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n o)
      ((contrEquiv1 dot_S1024x128_S128x128_S1024x128_1_0_0_1_n_n 128 rfl rfl).symm k) = ix2 n k :=
    funext fun a => Fin.ext (by
      match a with
      | ⟨0, _⟩ => exact lhs_supp_0 _ _
      | ⟨1, _⟩ => exact (lhs_supp_1 _ _).trans hk)
  have er : dot_S1024x128_S128x128_S1024x128_1_0_0_1_n_n.rhsIdx (ix2 n o)
      ((contrEquiv1 dot_S1024x128_S128x128_S1024x128_1_0_0_1_n_n 128 rfl rfl).symm k) = ix2 k o :=
    funext fun a => Fin.ext (by
      match a with
      | ⟨0, _⟩ => exact (rhs_supp_0 _ _).trans hk
      | ⟨1, _⟩ => exact rhs_supp_1 _ _)
  rw [el, er, truncf_apply, truncf_apply]
  exact congrArg (· * _) (shapeCast_1ab_ab_apply x0 _ n k)

/-! ### The second matmul's operand indices -/

theorem lhs_agg_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs_agg_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_agg_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_agg_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The aggregate at `(n, o)`: the adjacency row against the column of the row-scaled support. -/
theorem aggBlk_apply (n : Fin 1024) (o : Fin 128) :
    aggBlk x0 x1 x2 (ix2 n o)
      = ∑ m : Fin 1024, x1 (ix3 (0 : Fin 1) n m)
          * (Ideal.rsqrt ((∑ m' : Fin 1024, x1 (ix3 (0 : Fin 1) m m')) + 1)
              * ∑ i : Fin 128, x0 (ix3 (0 : Fin 1) m i) * x2 (ix2 i o)) := by
  unfold aggBlk
  refine (Ideal.matmul_constant_zero_apply dot_S1024x1024_S1024x128_S1024x128_1_0_0_1_n_n none _ _ (ix2 n o)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n o)
      ((contrEquiv1 dot_S1024x1024_S1024x128_S1024x128_1_0_0_1_n_n 1024 rfl rfl).symm k) = ix2 n k :=
    funext fun a => Fin.ext (by
      match a with
      | ⟨0, _⟩ => exact lhs_agg_0 _ _
      | ⟨1, _⟩ => exact (lhs_agg_1 _ _).trans hk)
  have er : dot_S1024x1024_S1024x128_S1024x128_1_0_0_1_n_n.rhsIdx (ix2 n o)
      ((contrEquiv1 dot_S1024x1024_S1024x128_S1024x128_1_0_0_1_n_n 1024 rfl rfl).symm k) = ix2 k o :=
    funext fun a => Fin.ext (by
      match a with
      | ⟨0, _⟩ => exact (rhs_agg_0 _ _).trans hk
      | ⟨1, _⟩ => exact rhs_agg_1 _ _)
  rw [el, er, truncf_apply, truncf_apply, mulf_apply, Cert.Keepdims.broadcastTo_a1_ab_apply, dCol_apply, suppBlk_apply]
  exact congrArg (· * _) (shapeCast_1ab_ab_apply x1 _ n k)

/-! ## The payload at an index -/

/-- The stored value at `(u, n, o)` of the output block. -/
theorem pay_apply (u : Fin 1) (n : Fin 1024) (o : Fin 128) :
    k0_pay1 x0 x1 x2 x3 (ix3 u n o)
      = Ideal.rsqrt ((∑ m : Fin 1024, x1 (ix3 (0 : Fin 1) n m)) + 1)
          * (∑ m : Fin 1024, x1 (ix3 (0 : Fin 1) n m)
              * (Ideal.rsqrt ((∑ m' : Fin 1024, x1 (ix3 (0 : Fin 1) m m')) + 1)
                  * ∑ i : Fin 128, x0 (ix3 (0 : Fin 1) m i) * x2 (ix2 i o)))
        + Ideal.rsqrt ((∑ m : Fin 1024, x1 (ix3 (0 : Fin 1) n m)) + 1)
            * Ideal.rsqrt ((∑ m : Fin 1024, x1 (ix3 (0 : Fin 1) n m)) + 1)
            * (∑ i : Fin 128, x0 (ix3 (0 : Fin 1) n i) * x2 (ix2 i o))
        + x3 (ix1 o) := by
  rw [pay_eq, shapeCast_ab_1ab_apply, addf_apply, addf_apply, mulf_apply, mulf_apply,
    Cert.Keepdims.broadcastTo_a1_ab_apply, Cert.Keepdims.broadcastTo_a1_ab_apply, broadcastTo_1b_ab_apply,
    shapeCast_a_1a_apply, mulf_apply, dCol_apply, aggBlk_apply, suppBlk_apply]

end Cert.KernelIdeal.Body

end
-- ==== Proof.Spec.lean ====
/-
  The graph-convolution layer as two formulas of the argument arrays, and the law that joins them.

  For a batch `b`, with `A = adj[b]`, `X = x[b]`, the degree of row `n` is `deg n = Σ_m A[n, m] + 1` (the self loop adds the one),
  `d n = deg n ^ (-1/2)` and the support is `S[n, o] = Σ_i X[n, i] · W[i, o]`.

  * The kernel's arrangement (`kerAt`): `d n · Σ_m A[n, m] · (d m · S[m, o]) + (d n · d n) · S[n, o] + β o`, with `d = rsqrt deg`.
  * The reference's arrangement (`refAt`): `Σ_m ((A[n, m] + I[n, m]) · d' n) · d' m · S[m, o] + β o`, where `I` is the identity
    matrix, the degree is summed from `A + I`, and `d'` is the power `deg ^ (-1/2)` with an infinite value replaced by `0`.

  When every entry is a real number and every degree is positive, `d` and `d'` are the same positive real
  `(√deg)⁻¹`, and the two arrangements agree by distributing the sum over `A + I`: the identity's term contributes
  `d n · d n · S[n, o]`. The law is proved on the reals and carried to the extended reals through the coercion.
-/
import Idealize.ShloMosaic.PureOps.Ideal
import Idealize.ShloMosaic.PureOps.Ideal.Laws
import Idealize.ShloMosaic.Lib.ValueIdx
import proofs.«121480_j87771951661495_1_alg».proof.Proof.Consts

noncomputable section

namespace Cert.GConv

open Idealize.ShloMosaic Idealize.ShloMosaic.ValueIdx

abbrev SX : Shape := ⟨3, ![32, 1024, 128]⟩
abbrev SA : Shape := ⟨3, ![32, 1024, 1024]⟩
abbrev SW : Shape := ⟨2, ![128, 128]⟩
abbrev SB : Shape := ⟨1, ![128]⟩

/-! ## The two arrangements -/

section formulas

variable (x : SX.Idx → EReal) (adj : SA.Idx → EReal) (w : SW.Idx → EReal) (bias : SB.Idx → EReal)

/-- The support `S[b, n, o] = Σ_i x[b, n, i] · w[i, o]`. -/
def supp (b : Fin 32) (n : Fin 1024) (o : Fin 128) : EReal := ∑ i : Fin 128, x (ix3 b n i) * w (ix2 i o)

/-- The kernel's degree: the row's sum plus one. -/
def deg (b : Fin 32) (n : Fin 1024) : EReal := (∑ m : Fin 1024, adj (ix3 b n m)) + 1

/-- The kernel's arrangement of the output at `(b, n, o)`. -/
def kerAt (b : Fin 32) (n : Fin 1024) (o : Fin 128) : EReal :=
  Ideal.rsqrt (deg adj b n) * (∑ m : Fin 1024, adj (ix3 b n m) * (Ideal.rsqrt (deg adj b m) * supp x w b m o))
    + Ideal.rsqrt (deg adj b n) * Ideal.rsqrt (deg adj b n) * supp x w b n o + bias (ix1 o)

/-- The output array as the kernel arranges it. -/
def G : SX.Idx → EReal := fun j => kerAt x adj w bias (j 0) (j 1) (j 2)

theorem G_ix3 (b : Fin 32) (n : Fin 1024) (o : Fin 128) : G x adj w bias (ix3 b n o) = kerAt x adj w bias b n o := rfl

/-- The identity matrix's entry as the reference forms it: the comparison of the row and column counters, converted. -/
def eye (n k : Fin 1024) : EReal :=
  FloatOps.uitofp (F := Ideal) .f32 (IntOp.cmpi .eq (IntOp.addi (BitVec.ofNat 32 n.val) 0#32) (BitVec.ofNat 32 k.val))

/-- The reference's degree: the row of `adj + I` summed from zero. -/
def refDeg (b : Fin 32) (n : Fin 1024) : EReal :=
  Ideal.ofBits .f32 0x00000000#32 + ∑ k : Fin 1024, (adj (ix3 b n k) + eye n k)

/-- The reference's guard: a value whose magnitude is infinite is replaced by zero. -/
def guard (p : EReal) : EReal :=
  Scalar.select (Ideal.cmp .oeq (max p (-p)) (Ideal.ofBits .f32 0x7F800000#32)) (Ideal.ofBits .f32 0x00000000#32) p

/-- The reference's scaling factor: the guarded power `deg ^ (-1/2)`. -/
def refD (b : Fin 32) (n : Fin 1024) : EReal :=
  guard (Ideal.pow (refDeg adj b n) (Ideal.ofBits .f32 0xBF000000#32))

/-- The reference's arrangement of the output at `(b, n, o)`. -/
def refAt (b : Fin 32) (n : Fin 1024) (o : Fin 128) : EReal :=
  (∑ k : Fin 1024, (adj (ix3 b n k) + eye n k) * refD adj b n * refD adj b k * supp x w b k o) + bias (ix1 o)

end formulas

/-! ## Small facts -/

/-- The identity's entry is one on the diagonal and zero off it. -/
theorem eye_eq (n k : Fin 1024) : eye n k = if n = k then 1 else 0 := by
  have hne : (BitVec.ofNat 32 n.val = BitVec.ofNat 32 k.val) ↔ n = k := by
    constructor
    · intro h
      have h' := congrArg BitVec.toNat h
      simp only [BitVec.toNat_ofNat] at h'
      have hn := n.isLt
      have hk := k.isLt
      rw [Nat.mod_eq_of_lt (by omega), Nat.mod_eq_of_lt (by omega)] at h'
      exact Fin.ext h'
    · rintro rfl; rfl
  have hw : IntOp.cmpi .eq (IntOp.addi (BitVec.ofNat 32 n.val) 0#32) (BitVec.ofNat 32 k.val)
      = if n = k then 1#1 else 0#1 := by
    by_cases hnk : n = k
    · subst hnk; simp [IntOp.cmpi, IntOp.addi]
    · have : ¬ BitVec.ofNat 32 n.val = BitVec.ofNat 32 k.val := fun h => hnk (hne.mp h)
      have hb : (BitVec.ofNat 32 n.val == BitVec.ofNat 32 k.val) = false := beq_eq_false_iff_ne.mpr this
      simp [IntOp.cmpi, IntOp.addi, hb, hnk]
  show ((((IntOp.cmpi .eq (IntOp.addi (BitVec.ofNat 32 n.val) 0#32) (BitVec.ofNat 32 k.val)).toNat : ℝ)) : EReal) = _
  rw [hw]
  split_ifs <;> simp

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The guard leaves a real number alone: its magnitude is not infinite. -/
theorem guard_coe (p : ℝ) : guard (p : EReal) = (p : EReal) := by
  have hne : max (p : EReal) (-(p : EReal)) ≠ ⊤ := by
    rcases max_choice (p : EReal) (-(p : EReal)) with h | h <;> rw [h]
    · exact EReal.coe_ne_top _
    · rw [← EReal.coe_neg]; exact EReal.coe_ne_top _
  have hc : Ideal.cmp .oeq (max (p : EReal) (-(p : EReal))) ⊤ = 0#1 := by
    simp [Ideal.cmp, hne]
  unfold guard
  rw [Consts.ofBits_inf, hc]
  exact select_zero _ _

/-- For a positive real, the power `r ^ (-1/2)` is the inverse of the square root. -/
theorem rpow_neg_half {r : ℝ} (h : 0 < r) : Real.rpow r (-(1 / 2)) = (Real.sqrt r)⁻¹ := by
  show r ^ (-(1 / 2 : ℝ)) = _
  rw [Real.rpow_neg h.le, Real.sqrt_eq_rpow]

/-! ## The law on the reals -/

/-- Distributing the sum over `A + I`: the identity's term is the diagonal one. -/
theorem real_law (a d s : Fin 1024 → ℝ) (n : Fin 1024) :
    ∑ k : Fin 1024, (a k + (if n = k then 1 else 0)) * d n * d k * s k
      = d n * (∑ m : Fin 1024, a m * (d m * s m)) + d n * d n * s n := by
  have h : ∀ k : Fin 1024, (a k + (if n = k then (1 : ℝ) else 0)) * d n * d k * s k
      = d n * (a k * (d k * s k)) + (if n = k then d n * d k * s k else 0) := by
    intro k
    split_ifs <;> ring
  rw [Finset.sum_congr rfl fun k _ => h k, Finset.sum_add_distrib, ← Finset.mul_sum,
    Finset.sum_ite_eq Finset.univ n, if_pos (Finset.mem_univ n)]

/-! ## The two arrangements agree on real arrays with positive degrees -/

section agree

variable (xr : SX.Idx → ℝ) (ar : SA.Idx → ℝ) (wr : SW.Idx → ℝ) (βr : SB.Idx → ℝ)

/-- The real degree. -/
def rdeg (b : Fin 32) (n : Fin 1024) : ℝ := (∑ m : Fin 1024, ar (ix3 b n m)) + 1

theorem deg_coe (b : Fin 32) (n : Fin 1024) : deg (fun j => (ar j : EReal)) b n = (rdeg ar b n : EReal) := by
  unfold deg rdeg
  rw [EReal.coe_add, coe_sum, EReal.coe_one]

theorem refDeg_coe (b : Fin 32) (n : Fin 1024) : refDeg (fun j => (ar j : EReal)) b n = (rdeg ar b n : EReal) := by
  unfold refDeg
  rw [Ideal.ofBits_zero_f32, zero_add, Finset.sum_add_distrib, Finset.sum_congr rfl fun k _ => eye_eq n k,
    Finset.sum_ite_eq Finset.univ n, if_pos (Finset.mem_univ n)]
  exact (deg_coe ar b n)

theorem supp_coe (b : Fin 32) (n : Fin 1024) (o : Fin 128) :
    supp (fun j => (xr j : EReal)) (fun j => (wr j : EReal)) b n o = ((∑ i : Fin 128, xr (ix3 b n i) * wr (ix2 i o) : ℝ) : EReal) := by
  unfold supp
  rw [coe_sum]
  exact Finset.sum_congr rfl fun i _ => (EReal.coe_mul _ _).symm

theorem rsqrt_deg_coe (b : Fin 32) (n : Fin 1024) (h : 0 < rdeg ar b n) :
    Ideal.rsqrt (deg (fun j => (ar j : EReal)) b n) = (((Real.sqrt (rdeg ar b n))⁻¹ : ℝ) : EReal) := by
  rw [deg_coe, Ideal.rsqrt_coe, if_neg (not_lt.mpr h.le), if_neg h.ne']

theorem refD_coe (b : Fin 32) (n : Fin 1024) (h : 0 < rdeg ar b n) :
    refD (fun j => (ar j : EReal)) b n = (((Real.sqrt (rdeg ar b n))⁻¹ : ℝ) : EReal) := by
  unfold refD
  rw [refDeg_coe, Consts.ofBits_neg_half, Ideal.pow_coe_coe, rpow_neg_half h, guard_coe]

/-- On real arrays whose degrees are all positive the reference's arrangement is the kernel's. -/
theorem refAt_eq_kerAt (hpos : ∀ b n, 0 < rdeg ar b n) (b : Fin 32) (n : Fin 1024) (o : Fin 128) :
    refAt (fun j => (xr j : EReal)) (fun j => (ar j : EReal)) (fun j => (wr j : EReal)) (fun j => (βr j : EReal)) b n o
      = kerAt (fun j => (xr j : EReal)) (fun j => (ar j : EReal)) (fun j => (wr j : EReal)) (fun j => (βr j : EReal)) b n o := by
  unfold refAt kerAt
  simp only [rsqrt_deg_coe ar b _ (hpos b _), refD_coe ar b _ (hpos b _), supp_coe, eye_eq]
  have hite : ∀ k : Fin 1024, (if n = k then (1 : EReal) else 0) = (((if n = k then 1 else 0 : ℝ)) : EReal) := by
    intro k; split_ifs <;> simp
  simp only [hite, ← EReal.coe_add, ← EReal.coe_mul, ← coe_sum]
  refine congrArg (fun t : ℝ => (t : EReal) + ((βr (ix1 o) : ℝ) : EReal)) ?_
  exact real_law (fun k => ar (ix3 b n k)) (fun k => (Real.sqrt (rdeg ar b k))⁻¹)
    (fun k => ∑ i : Fin 128, xr (ix3 b k i) * wr (ix2 i o)) n

end agree

/-! ## The same on extended-real arrays whose entries are all finite -/

/-- When every entry of the four arrays is finite and every degree of `adj + I` is positive, the reference's arrangement
    is the kernel's: a finite extended real is the coercion of a real. -/
theorem refAt_eq_kerAt_of_finite (x : SX.Idx → EReal) (adj : SA.Idx → EReal) (w : SW.Idx → EReal) (bias : SB.Idx → EReal)
    (hx : ∀ j, x j ≠ ⊥ ∧ x j ≠ ⊤) (ha : ∀ j, adj j ≠ ⊥ ∧ adj j ≠ ⊤) (hw : ∀ j, w j ≠ ⊥ ∧ w j ≠ ⊤)
    (hb : ∀ j, bias j ≠ ⊥ ∧ bias j ≠ ⊤) (hpos : ∀ b n, 0 < refDeg adj b n)
    (b : Fin 32) (n : Fin 1024) (o : Fin 128) : refAt x adj w bias b n o = kerAt x adj w bias b n o := by
  obtain ⟨xr, rfl⟩ : ∃ xr : SX.Idx → ℝ, x = fun j => (xr j : EReal) :=
    ⟨fun j => (x j).toReal, funext fun j => (EReal.coe_toReal (hx j).2 (hx j).1).symm⟩
  obtain ⟨ar, rfl⟩ : ∃ ar : SA.Idx → ℝ, adj = fun j => (ar j : EReal) :=
    ⟨fun j => (adj j).toReal, funext fun j => (EReal.coe_toReal (ha j).2 (ha j).1).symm⟩
  obtain ⟨wr, rfl⟩ : ∃ wr : SW.Idx → ℝ, w = fun j => (wr j : EReal) :=
    ⟨fun j => (w j).toReal, funext fun j => (EReal.coe_toReal (hw j).2 (hw j).1).symm⟩
  obtain ⟨βr, rfl⟩ : ∃ βr : SB.Idx → ℝ, bias = fun j => (βr j : EReal) :=
    ⟨fun j => (bias j).toReal, funext fun j => (EReal.coe_toReal (hb j).2 (hb j).1).symm⟩
  refine refAt_eq_kerAt xr ar wr βr (fun b' n' => ?_) b n o
  have h := hpos b' n'
  rw [refDeg_coe] at h
  exact EReal.coe_pos.mp h

end Cert.GConv

end
-- ==== Proof.KernelValue.lean ====
/-
  From the kernel's blocks to its result array.

  Grid point `t` stages batch `t` of the features and of the adjacency, the whole weight and the whole bias, and writes
  back batch `t` of the output. What it writes is the body's payload of those blocks, which at row `n` and column `o`
  is the kernel's arrangement `kerAt` of the argument arrays at `(t, n, o)`. The 32 output blocks tile the result
  array, so the array ends holding `G` of the argument arrays.
-/
import proofs.«121480_j87771951661495_1_alg».proof.Proof.Gen.KernelIdeal.Value
import proofs.«121480_j87771951661495_1_alg».proof.Proof.KernelBody
import proofs.«121480_j87771951661495_1_alg».proof.Proof.Spec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The payload of blocks that are batch `b` of the features and adjacency and the whole weight and bias is, at row
    `n` and column `o` of the output block, the kernel's arrangement at `(b, n, o)`. -/
theorem pay_at (x0 : Vec Ideal S1x1024x128 .f32) (x1 : Vec Ideal S1x1024x1024 .f32) (x2 : Vec Ideal S128x128 .f32)
    (x3 : Vec Ideal S128 .f32) (X : Cert.GConv.SX.Idx → EReal) (A : Cert.GConv.SA.Idx → EReal)
    (W : Cert.GConv.SW.Idx → EReal) (B : Cert.GConv.SB.Idx → EReal) (b : Fin 32)
    (h0 : ∀ (n : Fin 1024) (i : Fin 128), x0 (ix3 (0 : Fin 1) n i) = X (ix3 b n i))
    (h1 : ∀ (n : Fin 1024) (k : Fin 1024), x1 (ix3 (0 : Fin 1) n k) = A (ix3 b n k))
    (h2 : ∀ (i : Fin 128) (o : Fin 128), x2 (ix2 i o) = W (ix2 i o))
    (h3 : ∀ o : Fin 128, x3 (ix1 o) = B (ix1 o))
    (u : Fin 1) (n : Fin 1024) (o : Fin 128) :
    k0_pay1 x0 x1 x2 x3 (ix3 u n o) = Cert.GConv.kerAt X A W B b n o := by
  rw [Body.pay_apply]
  unfold Cert.GConv.kerAt Cert.GConv.deg Cert.GConv.supp
  simp only [h0, h1, h2, h3]

/-- The printed index maps over the grid: the features', the adjacency's and the output's blocks are batch `t`, the weight
    and the bias are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- What point `t` writes back is block `t` of `G` of the argument arrays. -/
theorem flushed_eq (c : Dev nD) (t : Fin cfg0.N) :
    (dats m 0 c).flushed 4 t = ((cfg0.win 4).blk t).view.read (Elt Ideal)
      (Cert.GConv.G (V m c main_arg0) (V m c main_arg1) (V m c main_arg2) (V m c main_arg3)) := by
  rw [Cert.KernelIdeal.Value.flushed4]
  unfold out0_4
  rw [View.canon_unit_zero hz3]
  simp only [View.ld_unit_zero (S := S1x1024x128) hz3, View.ld_unit_zero (S := S1x1024x1024) hz3,
    View.ld_unit_zero (S := S128x128) hz2, View.ld_unit_zero (S := S128) hz1]
  obtain ⟨e00, e01, e02, e10, e11, e12, e20, e21, e30, e40, e41, e42⟩ := idx_facts t
  have hN : cfg0.N = 32 := N_0
  have htlt : t.val < 32 := hN ▸ t.isLt
  funext j
  show k0_pay1 (iblk m c 0 t) (iblk m c 1 t) (iblk m c 2 t) (iblk m c 3 t) j
    = Cert.GConv.G (V m c main_arg0) (V m c main_arg1) (V m c main_arg2) (V m c main_arg3) (((cfg0.win 4).blk t).view.emb j)
  have hj0 : (j 0).val < 1 := (j 0).isLt
  have hj1 : (j 1).val < 1024 := (j 1).isLt
  have hj2 : (j 2).val < 128 := (j 2).isLt
  have hemb : ((cfg0.win 4).blk t).view.emb j
      = ix3 (⟨t.val, htlt⟩ : Fin 32) (⟨(j 1).val, hj1⟩ : Fin 1024) (⟨(j 2).val, hj2⟩ : Fin 128) := by
    funext a; apply Fin.ext
    match a with
    | ⟨0, _⟩ => show win0_4.index t (0 : Fin 3) * 1 + 1 * (j 0).val = t.val; omega
    | ⟨1, _⟩ => show win0_4.index t (1 : Fin 3) * 1024 + 1 * (j 1).val = (j 1).val; omega
    | ⟨2, _⟩ => show win0_4.index t (2 : Fin 3) * 128 + 1 * (j 2).val = (j 2).val; omega
  have hj : j = ix3 (⟨(j 0).val, hj0⟩ : Fin 1) (⟨(j 1).val, hj1⟩ : Fin 1024) (⟨(j 2).val, hj2⟩ : Fin 128) := by
    funext a; apply Fin.ext
    match a with
    | ⟨0, _⟩ => rfl
    | ⟨1, _⟩ => rfl
    | ⟨2, _⟩ => rfl
  rw [hemb, Cert.GConv.G_ix3]
  refine Eq.trans (congrArg (k0_pay1 (iblk m c 0 t) (iblk m c 1 t) (iblk m c 2 t) (iblk m c 3 t)) hj) ?_
  refine pay_at (iblk m c 0 t) (iblk m c 1 t) (iblk m c 2 t) (iblk m c 3 t)
    (V m c main_arg0) (V m c main_arg1) (V m c main_arg2) (V m c main_arg3) ⟨t.val, htlt⟩ ?_ ?_ ?_ ?_ _ _ _
  · intro n i
    show V m c main_arg0 (((cfg0.win 0).blk t).view.emb (ix3 (0 : Fin 1) n i)) = V m c main_arg0 (ix3 (⟨t.val, htlt⟩ : Fin 32) n i)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 128 + 1 * i.val = i.val; omega
  · intro n k
    show V m c main_arg1 (((cfg0.win 1).blk t).view.emb (ix3 (0 : Fin 1) n k)) = V m c main_arg1 (ix3 (⟨t.val, htlt⟩ : Fin 32) n k)
    refine congrArg (V m c main_arg1) (funext fun a => Fin.ext ?_)
    match a with
    | ⟨0, _⟩ => show win0_1.index t (0 : Fin 3) * 1 + 1 * 0 = t.val; omega
    | ⟨1, _⟩ => show win0_1.index t (1 : Fin 3) * 1024 + 1 * n.val = n.val; omega
    | ⟨2, _⟩ => show win0_1.index t (2 : Fin 3) * 1024 + 1 * k.val = k.val; omega
  · intro i o
    show V m c main_arg2 (((cfg0.win 2).blk t).view.emb (ix2 i o)) = V m c main_arg2 (ix2 i o)
    refine congrArg (V m c main_arg2) (funext fun a => Fin.ext ?_)
    match a with
    | ⟨0, _⟩ => show win0_2.index t (0 : Fin 2) * 128 + 1 * i.val = i.val; omega
    | ⟨1, _⟩ => show win0_2.index t (1 : Fin 2) * 128 + 1 * o.val = o.val; omega
  · intro o
    show V m c main_arg3 (((cfg0.win 3).blk t).view.emb (ix1 o)) = V m c main_arg3 (ix1 o)
    refine congrArg (V m c main_arg3) (funext fun a => Fin.ext ?_)
    match a with
    | ⟨0, _⟩ => show win0_3.index t (0 : Fin 1) * 128 + 1 * o.val = o.val; omega

/-- An index of the result array is in point `t`'s block iff each coordinate is in the block's range on its axis. -/
theorem mem_blk (t : Fin cfg0.N) (i : S32x1024x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v0).slice (win0_4.rect t)).set ↔ _
  rw [View.set_slice_whole, Rect.mem_set_unit]
  exact Iff.rfl

/-- Every index of the result array lies in the block of the point that is its batch coordinate. -/
theorem cover (i : S32x1024x128.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 1024 := (i 1).isLt
  have hi2 : (i 2).val < 128 := (i 2).isLt
  have hlt : (i 0).val < cfg0.N := by rw [hN]; exact hi0
  obtain ⟨t0, ht0⟩ : ∃ t0 : Fin cfg0.N, t0.val = (i 0).val := ⟨⟨(i 0).val, hlt⟩, rfl⟩
  refine ⟨t0, flush0_4 _, ?_⟩
  obtain ⟨e00, e01, e02, e10, e11, e12, e20, e21, e30, e40, e41, e42⟩ := idx_facts t0
  rw [mem_blk]
  intro a
  match a with
  | ⟨0, _⟩ =>
    show win0_4.index t0 (0 : Fin 3) * 1 ≤ (i 0).val ∧ (i 0).val < win0_4.index t0 (0 : Fin 3) * 1 + 1
    omega
  | ⟨1, _⟩ =>
    show win0_4.index t0 (1 : Fin 3) * 1024 ≤ (i 1).val ∧ (i 1).val < win0_4.index t0 (1 : Fin 3) * 1024 + 1024
    omega
  | ⟨2, _⟩ =>
    show win0_4.index t0 (2 : Fin 3) * 128 ≤ (i 2).val ∧ (i 2).val < win0_4.index t0 (2 : Fin 3) * 128 + 128
    omega

/-- The result array after the run is `G` of the argument arrays. -/
theorem final (c : Dev nD) : (dats m 0 c).arrAt 4 cfg0.N
    = Cert.GConv.G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = Cert.GConv.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RefRead.lean ====
/-
  The reference's result term read at an index: it is the reference's arrangement `refAt` of the argument arrays.

  Each stage of the host program is read at explicit coordinates: `adj + I` at `(b, n, k)`, its row sum (the degree) at
  `(b, n)`, the guarded power at `(b, n)`, the normalised adjacency `((adj + I) · d' n) · d' k` at `(b, n, k)`, the
  support `x · w` at `(b, k, o)`, their contraction over `k`, and the bias added at `(b, n, o)`.
-/
import proofs.«121480_j87771951661495_1_alg».proof.Proof.Gen.ReferenceIdeal.Read
import proofs.«121480_j87771951661495_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.GConv

variable (x0 : (⟨S32x1024x128, .f32⟩ : BufTy).Contents (Elt Ideal)) (x1 : (⟨S32x1024x1024, .f32⟩ : BufTy).Contents (Elt Ideal))
  (x2 : (⟨S128x128, .f32⟩ : BufTy).Contents (Elt Ideal)) (x3 : (⟨S128, .f32⟩ : BufTy).Contents (Elt Ideal))

/-- `adj + I` at `(b, n, k)`. -/
theorem v8_at (b : Fin 32) (n k : Fin 1024) :
    val_main_v8 (F := Ideal) x1 (ix3 b n k) = x1 (ix3 b n k) + eye n k := by
  rw [val_main_v8_apply, val_main_v7_apply, val_main_v6_apply, val_main_v5_apply, val_main_v4_apply, val_main_v3_apply,
    val_main_v2_apply, val_main_v0_apply, val_main_v1_apply, val_main_c_apply]
  rfl

/-- The degree at `(b, n)`: the row of `adj + I` summed from zero. -/
theorem v9_at (b : Fin 32) (n : Fin 1024) : val_main_v9 (F := Ideal) x1 (ix2 b n) = refDeg x1 b n := by
  rw [val_main_v9_apply, val_main_cst_apply]
  unfold refDeg
  refine congrArg (_ + ·) (Finset.sum_congr rfl fun k _ => ?_)
  have e : idx_main_v9 (ix2 b n) k = ix3 b n k :=
    funext fun a => Fin.ext (by match a with | ⟨0, _⟩ => rfl | ⟨1, _⟩ => rfl | ⟨2, _⟩ => rfl)
  rw [e, v8_at]

/-- The guarded power at `(b, n)`. -/
theorem v13_at (b : Fin 32) (n : Fin 1024) : val_main_v13 (F := Ideal) x1 (ix2 b n) = refD x1 b n := by
  rw [val_main_v13_apply, val_main_v12_apply, val_main_call0_v0_apply, val_main_v11_apply, val_main_call0_v1_apply,
    val_main_call0_cst_apply, val_main_call1_v1_apply, val_main_call1_v0_apply, val_main_cst_1_apply, val_main_v10_apply,
    val_main_cst_0_apply, v9_at]
  rfl

/-- The normalised adjacency at `(b, n, k)`. -/
theorem v19_at (b : Fin 32) (n k : Fin 1024) :
    val_main_v19 (F := Ideal) x1 (ix3 b n k) = (x1 (ix3 b n k) + eye n k) * refD x1 b n * refD x1 b k := by
  have e1 : idx_main_v14 (idx_main_v15 (ix3 b n k)) = ix2 b n :=
    funext fun a => Fin.ext (by match a with | ⟨0, _⟩ => rfl | ⟨1, _⟩ => rfl)
  have e2 : idx_main_v17 (idx_main_v18 (ix3 b n k)) = ix2 b k :=
    funext fun a => Fin.ext (by match a with | ⟨0, _⟩ => rfl | ⟨1, _⟩ => rfl)
  rw [val_main_v19_apply, val_main_v16_apply, val_main_v18_apply, val_main_v17_apply, val_main_v15_apply,
    val_main_v14_apply, v8_at, e1, e2, v13_at, v13_at]
  rfl

/-- The support at `(b, k, o)`. -/
theorem v20_at (b : Fin 32) (k : Fin 1024) (o : Fin 128) :
    val_main_v20 (F := Ideal) x0 x2 (ix3 b k o) = supp x0 x2 b k o := by
  rw [val_main_v20_apply]
  unfold supp
  refine Finset.sum_congr rfl fun i _ => ?_
  have el : lidx_main_v20 (ix3 b k o) i = ix3 b k i :=
    funext fun a => Fin.ext (by match a with | ⟨0, _⟩ => rfl | ⟨1, _⟩ => rfl | ⟨2, _⟩ => rfl)
  have er : ridx_main_v20 (ix3 b k o) i = ix2 i o :=
    funext fun a => Fin.ext (by match a with | ⟨0, _⟩ => rfl | ⟨1, _⟩ => rfl)
  rw [el, er]

/-- The result at `(b, n, o)` is the reference's arrangement. -/
theorem v24_at (b : Fin 32) (n : Fin 1024) (o : Fin 128) :
    val_main_v24 (F := Ideal) x0 x1 x2 x3 (ix3 b n o) = refAt x0 x1 x2 x3 b n o := by
  have eb : idx_main_v22 (idx_main_v23 (ix3 b n o)) = ix1 o :=
    funext fun a => Fin.ext (by match a with | ⟨0, _⟩ => rfl)
  rw [val_main_v24_apply, val_main_v21_apply, val_main_v23_apply, val_main_v22_apply, eb]
  unfold refAt
  refine congrArg (· + _) (Finset.sum_congr rfl fun k _ => ?_)
  have el : lidx_main_v21 (ix3 b n o) k = ix3 b n k :=
    funext fun a => Fin.ext (by match a with | ⟨0, _⟩ => rfl | ⟨1, _⟩ => rfl | ⟨2, _⟩ => rfl)
  have er : ridx_main_v21 (ix3 b n o) k = ix3 b k o :=
    funext fun a => Fin.ext (by match a with | ⟨0, _⟩ => rfl | ⟨1, _⟩ => rfl | ⟨2, _⟩ => rfl)
  rw [el, er, v19_at, v20_at]

end Cert.ReferenceIdeal.RefValue

end
-- ==== Proof.PreFacts.lean ====
/-
  What the precondition says of the argument arrays: every entry of the four arrays is finite (its magnitude is below
  `+∞`), and every degree — the row sum of `adj + I`, the base of the reference's negative power — is positive.

  The precondition is a conjunction of five `all`-reductions; each gives its comparison at every index, and a
  comparison that holds reads as the order fact on the extended reals. The degree the precondition sums is the very
  term the reference sums, so it is read at `(b, n)` by the reference's own reading.
-/
import proofs.«121480_j87771951661495_1_alg».proof.Defs
import proofs.«121480_j87771951661495_1_alg».proof.Proof.Gen.Pre_finite_inputs
import proofs.«121480_j87771951661495_1_alg».proof.Proof.RefRead
import Idealize.ShloMosaic.Lib.ReduceAll
import Idealize.ShloMosaic.Lib.Affine

noncomputable section

namespace Cert.PreFacts

open Idealize.ShloMosaic Idealize.ShloMosaic.ValueIdx Cert.GConv

instance : Subsingleton (⟨0, ![]⟩ : Shape).Idx := ⟨fun a b => funext fun d => d.elim0⟩

/-- A Boolean as a one-bit word is one exactly when it is true. -/
theorem ofBool_one {b : Bool} (h : BitVec.ofBool b = 1#1) : b = true := by
  cases b
  · exact absurd h (by decide)
  · rfl

/-- A magnitude below `+∞` belongs to a finite value. -/
theorem finite_of_lt {v : EReal}
    (h : FloatOps.cmpf (F := Ideal) (φ := .f32) .olt (FloatOps.hostAbsf (F := Ideal) (φ := .f32) v) (Ideal.ofBits .f32 0x7F800000#32) = 1#1) :
    v ≠ ⊥ ∧ v ≠ ⊤ := by
  have h1 : Ideal.cmp .olt (max v (-v)) ⊤ = 1#1 := by rw [← Consts.ofBits_inf]; exact h
  have h' : max v (-v) < ⊤ := of_decide_eq_true (ofBool_one h1)
  constructor
  · rintro rfl
    rw [EReal.neg_bot, max_eq_right bot_le] at h'
    exact lt_irrefl _ h'
  · rintro rfl
    rw [max_eq_left le_top] at h'
    exact lt_irrefl _ h'

/-- A scalar constant broadcast to any shape reads as the constant at every index. -/
theorem bcast_scalar_apply {s : Shape} (hb : (⟨0, ![]⟩ : Shape).BroadcastsInDim s (![] : Fin 0 → Fin s.rank)) (c : BitVec 32)
    (j : s.Idx) :
    broadcastInDim s ![] hb (constant (F := Ideal) (⟨0, ![]⟩ : Shape) .f32 c) j = Ideal.ofBits .f32 c :=
  broadcastInDim_apply _ hb (constant (F := Ideal) (⟨0, ![]⟩ : Shape) .f32 c) j (fun a => a.elim0) (fun a => a.elim0)

/-- The finiteness comparison at one index. -/
theorem finite_elem {s : Shape} (hb : (⟨0, ![]⟩ : Shape).BroadcastsInDim s (![] : Fin 0 → Fin s.rank)) (x : FVec Ideal s .f32)
    (j : s.Idx)
    (h : cmpf .olt (Host.absf x) (broadcastInDim s ![] hb (constant (F := Ideal) (⟨0, ![]⟩ : Shape) .f32 0x7F800000#32)) j = 1#1) :
    x j ≠ ⊥ ∧ x j ≠ ⊤ := by
  have h' : FloatOps.cmpf (F := Ideal) (φ := .f32) .olt (FloatOps.hostAbsf (F := Ideal) (φ := .f32) (x j))
      (broadcastInDim s ![] hb (constant (F := Ideal) (⟨0, ![]⟩ : Shape) .f32 0x7F800000#32) j) = 1#1 := h
  rw [bcast_scalar_apply] at h'
  exact finite_of_lt h'

/-- The positivity comparison at `(b, n)`, over the reference's degree term. -/
theorem pos_elem (a : FVec Ideal (⟨3, ![32, 1024, 1024]⟩ : Shape) .f32)
    (hb : (⟨0, ![]⟩ : Shape).BroadcastsInDim (⟨2, ![32, 1024]⟩ : Shape) (![] : Fin 0 → Fin 2)) (b : Fin 32) (n : Fin 1024)
    (h : FloatOps.cmpf (F := Ideal) (φ := .f32) .ogt (Cert.ReferenceIdeal.Read.val_main_v9 (F := Ideal) a (ix2 b n))
      (broadcastInDim (⟨2, ![32, 1024]⟩ : Shape) ![] hb (constant (F := Ideal) (⟨0, ![]⟩ : Shape) .f32 0x00000000#32) (ix2 b n)) = 1#1) :
    0 < refDeg a b n := by
  rw [bcast_scalar_apply, Cert.ReferenceIdeal.RefValue.v9_at, Ideal.ofBits_zero_f32] at h
  have h1 : Ideal.cmp .ogt (refDeg a b n) 0 = 1#1 := h
  exact of_decide_eq_true (ofBool_one h1)

/-- The precondition, decoded. -/
theorem decode (x : FVec Ideal (⟨3, ![32, 1024, 128]⟩ : Shape) .f32) (a : FVec Ideal (⟨3, ![32, 1024, 1024]⟩ : Shape) .f32)
    (w : FVec Ideal (⟨2, ![128, 128]⟩ : Shape) .f32) (β : FVec Ideal (⟨1, ![128]⟩ : Shape) .f32)
    (h : Cert.Pre_finite_inputs.fn (F := Ideal) x a w β = fun _ => 1#1) :
    (∀ j, x j ≠ ⊥ ∧ x j ≠ ⊤) ∧ (∀ j, a j ≠ ⊥ ∧ a j ≠ ⊤) ∧ (∀ j, w j ≠ ⊥ ∧ w j ≠ ⊤) ∧ (∀ j, β j ≠ ⊥ ∧ β j ≠ ⊤)
      ∧ ∀ b n, 0 < refDeg a b n := by
  have h0 := congrFun h ix0
  dsimp only [Cert.Pre_finite_inputs.fn, Cert.Pre_finite_inputs.fn_part1] at h0
  obtain ⟨h0, h5⟩ := IntOp.andi_eq_one.mp h0
  obtain ⟨h0, h4⟩ := IntOp.andi_eq_one.mp h0
  obtain ⟨h0, h3⟩ := IntOp.andi_eq_one.mp h0
  obtain ⟨h1, h2⟩ := IntOp.andi_eq_one.mp h0
  refine ⟨fun j => finite_elem _ x j (Host.reduce_andi_all _ _ _ _ ix0 h1 j),
    fun j => finite_elem _ a j (Host.reduce_andi_all _ _ _ _ ix0 h2 j),
    fun j => finite_elem _ w j (Host.reduce_andi_all _ _ _ _ ix0 h3 j),
    fun j => finite_elem _ β j (Host.reduce_andi_all _ _ _ _ ix0 h4 j), fun b n => ?_⟩
  exact pos_elem a _ b n (Host.reduce_andi_all _ _ _ _ ix0 h5 (ix2 b n))

/-- Under the precondition the reference's result term is `G` of the argument arrays: read at `(b, n, o)` it is the
    reference's arrangement, which on finite arrays with positive degrees is the kernel's. -/
theorem ref_eq_G (x : FVec Ideal (⟨3, ![32, 1024, 128]⟩ : Shape) .f32) (a : FVec Ideal (⟨3, ![32, 1024, 1024]⟩ : Shape) .f32)
    (w : FVec Ideal (⟨2, ![128, 128]⟩ : Shape) .f32) (β : FVec Ideal (⟨1, ![128]⟩ : Shape) .f32)
    (h : Cert.Pre_finite_inputs.fn (F := Ideal) x a w β = fun _ => 1#1) :
    Cert.ReferenceIdeal.Read.val_main_v24 (F := Ideal) x a w β = G x a w β := by
  obtain ⟨hx, ha, hw, hb, hpos⟩ := decode x a w β h
  funext j
  obtain ⟨b, n, o, rfl⟩ : ∃ (b : Fin 32) (n : Fin 1024) (o : Fin 128), j = ix3 b n o := ⟨j 0, j 1, j 2, eq_ix3 j⟩
  rw [Cert.ReferenceIdeal.RefValue.v24_at, G_ix3]
  exact refAt_eq_kerAt_of_finite x a w β hx ha hw hb hpos b n o

end Cert.PreFacts

end
-- ==== Proof.lean ====
/-
  A graph-convolution layer: `out = D^(-1/2) (A + I) D^(-1/2) · (x · W) + β` per batch, with `D` the diagonal matrix of the
  row sums of `A + I`.

  The kernel never forms `A + I` or the normalised matrix. With `d n = rsqrt (Σ_m A[n, m] + 1)` and `S = x · W` it computes
  `d n · Σ_m A[n, m] · (d m · S[m, o]) + (d n · d n) · S[n, o] + β o`, one batch per grid point. The reference sums the rows of
  `A + I`, raises the sums to the power `-1/2` (an infinite value replaced by zero), scales `A + I` by the row and the
  column factor and contracts with `S`.

  On the extended reals the two agree where every entry is finite and every row sum of `A + I` is positive — the
  precondition: the power and `rsqrt` are then the same positive real `(√deg)⁻¹`, the reference's guard does not
  bind, and distributing the contraction over `A + I` splits off the identity's term `d n · d n · S[n, o]`.

  The modules: `Proof/Spec` states both arrangements and proves the law; `Proof/KernelBody` and `Proof/KernelValue`
  read the kernel's payload and assemble its result array from the blocks; `Proof/RefRead` reads the reference's
  term at an index; `Proof/PreFacts` reads the precondition. The idealization rewrote no operation, so the kernel's
  sanctioned idealization is the program's own text.
-/
import proofs.«121480_j87771951661495_1_alg».proof.Defs
import proofs.«121480_j87771951661495_1_alg».proof.Proof.Gen.Kernel
import proofs.«121480_j87771951661495_1_alg».proof.Proof.Gen.Kernel.Frame
import proofs.«121480_j87771951661495_1_alg».proof.Proof.Gen.KernelIdeal
import proofs.«121480_j87771951661495_1_alg».proof.Proof.Gen.KernelIdeal.Frame
import proofs.«121480_j87771951661495_1_alg».proof.Proof.Gen.KernelIdeal.Value
import proofs.«121480_j87771951661495_1_alg».proof.Proof.Gen.ReferenceIdeal
import proofs.«121480_j87771951661495_1_alg».proof.Proof.Gen.ReferenceIdeal.Run
import proofs.«121480_j87771951661495_1_alg».proof.Proof.Gen.ReferenceIdeal.Read
import proofs.«121480_j87771951661495_1_alg».proof.Proof.Gen.Pre_finite_inputs
import proofs.«121480_j87771951661495_1_alg».proof.Proof.KernelValue
import proofs.«121480_j87771951661495_1_alg».proof.Proof.PreFacts
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the arguments both programs end with the result array at `G` of the arguments: the
    kernel by its blocks, the reference because under the precondition its term is `G`. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  exact Cert.PreFacts.ref_eq_G _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
